-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S64x4096 : Shape := ⟨2, ![64, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x64 .f32) (main_arg2 : FVec F S64x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x64 : Shape := ⟨2, ![4096, 64]⟩
abbrev S64x4096 : Shape := ⟨2, ![64, 4096]⟩
abbrev S4096 : Shape := ⟨1, ![4096]⟩
abbrev S1x4096 : Shape := ⟨2, ![1, 4096]⟩
abbrev S256x4096 : Shape := ⟨2, ![256, 4096]⟩
abbrev S256x64 : Shape := ⟨2, ![256, 64]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x64, .f32⟩
  | .local _ .vmem, ⟨3, _⟩ => ⟨S64x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  inb_S64x4096_S64x4096_0_0 : ∀ a, (![0, 0] : Fin 2 → Nat) a + S64x4096.size a ≤ S64x4096.size a
  h_S64x4096 : 0 < S64x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x64_S256x64_1_0_0_1_n_n_wf : DotDims.WF S256x4096 S4096x64 S256x64 [1] [0] [0] [1] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x64 : Shape := ⟨2, ![4096, 64]⟩
abbrev S64x4096 : Shape := ⟨2, ![64, 4096]⟩
abbrev S4096 : Shape := ⟨1, ![4096]⟩
abbrev S4096x4096 : Shape := ⟨2, ![4096, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x64_S64x4096_S4096x4096_1_0_0_1_n_n_wf : DotDims.WF S4096x64 S64x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FactoredLinear.lean ====
/-
  A linear layer whose weight is a product of two thin factors, as one function of its arrays, and the law that lets the
  product be taken in either order.

  For `x : [8192, 4096]`, `u : [4096, 64]`, `v : [64, 4096]` and a bias `b : [4096]`, entry `(p, q)` of the
  result is `sum_e (sum_k x(p,k) * u(k,e)) * v(e,q) + b(q)` when the thin products are taken first ("factored"), and
  `sum_k x(p,k) * (sum_e u(k,e) * v(e,q)) + b(q)` when the square weight `u * v` is formed first ("dense"). The two
  agree by associativity of the matrix product: distribute each product over the inner sum and exchange the two sums.
  On the extended reals a product does not distribute over a sum at the infinities, so the law is stated for arrays
  whose entries are real numbers; the bias may be anything.
-/
import Idealize.ShloMosaic.PureOps.Ideal
import Idealize.ShloMosaic.Lib.ValueIdx

noncomputable section

namespace FactoredLinear

open Idealize.ShloMosaic Idealize.ShloMosaic.ValueIdx

/-- A finite sum of embedded reals is the embedded sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Associativity of a triple product of real matrices, one entry at a time, written on the extended reals:
    `sum_e (sum_k a_k * u_ke) * v_e = sum_k a_k * (sum_e u_ke * v_e)`. -/
theorem assoc_real {K E : Type} [Fintype K] [Fintype E] (a : K → ℝ) (u : K → E → ℝ) (v : E → ℝ) :
    (∑ e, (∑ k, ((a k : ℝ) : EReal) * ((u k e : ℝ) : EReal)) * ((v e : ℝ) : EReal))
      = ∑ k, ((a k : ℝ) : EReal) * (∑ e, ((u k e : ℝ) : EReal) * ((v e : ℝ) : EReal)) := by
  simp only [← EReal.coe_mul, coe_sum]
  refine congrArg (fun r : ℝ => (r : EReal)) ?_
  simp only [Finset.sum_mul, Finset.mul_sum]
  rw [Finset.sum_comm]
  exact Finset.sum_congr rfl fun k _ => Finset.sum_congr rfl fun e _ => mul_assoc _ _ _

/-- Every entry of the array is a real number. -/
def RealEntries {s : Shape} (x : s.Idx → EReal) : Prop := ∀ i, ∃ r : ℝ, x i = (r : EReal)

/-- The thin products first: `(x * u) * v + b`, entry by entry. -/
def factored (x : (⟨2, ![8192, 4096]⟩ : Shape).Idx → EReal) (u : (⟨2, ![4096, 64]⟩ : Shape).Idx → EReal)
    (v : (⟨2, ![64, 4096]⟩ : Shape).Idx → EReal) (b : (⟨1, ![4096]⟩ : Shape).Idx → EReal) :
    (⟨2, ![8192, 4096]⟩ : Shape).Idx → EReal :=
  fun i => (∑ e : Fin 64, (∑ k : Fin 4096, x (ix2 (i 0) k) * u (ix2 k e)) * v (ix2 e (i 1))) + b (ix1 (i 1))

/-- The square weight first: `x * (u * v) + b`, entry by entry. -/
def dense (x : (⟨2, ![8192, 4096]⟩ : Shape).Idx → EReal) (u : (⟨2, ![4096, 64]⟩ : Shape).Idx → EReal)
    (v : (⟨2, ![64, 4096]⟩ : Shape).Idx → EReal) (b : (⟨1, ![4096]⟩ : Shape).Idx → EReal) :
    (⟨2, ![8192, 4096]⟩ : Shape).Idx → EReal :=
  fun i => (∑ k : Fin 4096, x (ix2 (i 0) k) * (∑ e : Fin 64, u (ix2 k e) * v (ix2 e (i 1)))) + b (ix1 (i 1))

/-- On arrays of real entries the two orders of the product give one array. -/
theorem factored_eq_dense {x : (⟨2, ![8192, 4096]⟩ : Shape).Idx → EReal} {u : (⟨2, ![4096, 64]⟩ : Shape).Idx → EReal}
    {v : (⟨2, ![64, 4096]⟩ : Shape).Idx → EReal} (b : (⟨1, ![4096]⟩ : Shape).Idx → EReal)
    (hx : RealEntries x) (hu : RealEntries u) (hv : RealEntries v) :
    factored x u v b = dense x u v b := by
  choose xr hxr using hx
  choose ur hur using hu
  choose vr hvr using hv
  funext i
  unfold factored dense
  simp only [hxr, hur, hvr]
  exact congrArg (· + b (ix1 (i 1)))
    (assoc_real (fun k : Fin 4096 => xr (ix2 (i 0) k)) (fun (k : Fin 4096) (e : Fin 64) => ur (ix2 k e))
      (fun e : Fin 64 => vr (ix2 e (i 1))))

end FactoredLinear

end
-- ==== Proof.ReferenceDense.lean ====
/-
  The reference, read entry by entry: it forms the square weight `u * v` first and then `x * (u * v) + b`, which is
  the "dense" arrangement of the specification.
-/
import proofs.«147946_j88356067213436_2_alg».proof.Proof.Gen.ReferenceIdeal.Read
import proofs.«147946_j88356067213436_2_alg».proof.Proof.FactoredLinear

noncomputable section

namespace FactoredLinear.Reference

open Idealize.ShloMosaic Idealize.ShloMosaic.ValueIdx Cert.ReferenceIdeal Cert.ReferenceIdeal.Read

/-- The outer product reads `x` at row `i 0`, position `k`. -/
theorem outer_left (i : S8192x4096.Idx) (k : Fin 4096) : lidx_main_v1 i k = ix2 (i 0) k :=
  funext fun a => Fin.ext (by match a with | ⟨0, _⟩ => rfl | ⟨1, _⟩ => rfl)

/-- The square weight's entry `(k, i 1)` reads `u` at `(k, e)` … -/
theorem inner_left (i : S8192x4096.Idx) (k : Fin 4096) (e : Fin 64) : lidx_main_v0 (ridx_main_v1 i k) e = ix2 k e :=
  funext fun a => Fin.ext (by match a with | ⟨0, _⟩ => rfl | ⟨1, _⟩ => rfl)

/-- … and `v` at `(e, i 1)`. -/
theorem inner_right (i : S8192x4096.Idx) (k : Fin 4096) (e : Fin 64) : ridx_main_v0 (ridx_main_v1 i k) e = ix2 e (i 1) :=
  funext fun a => Fin.ext (by match a with | ⟨0, _⟩ => rfl | ⟨1, _⟩ => rfl)

/-- The bias, made a row and repeated down the rows, is read at the column. -/
theorem bias_at (i : S8192x4096.Idx) : idx_main_v2 (idx_main_v3 i) = ix1 (i 1) :=
  funext fun a => Fin.ext (by match a with | ⟨0, _⟩ => rfl)

/-- The reference's result is the dense arrangement of its arguments. -/
theorem result_eq_dense (x0 : (⟨S8192x4096, .f32⟩ : BufTy).Contents (Elt Ideal)) (x1 : (⟨S4096x64, .f32⟩ : BufTy).Contents (Elt Ideal))
    (x2 : (⟨S64x4096, .f32⟩ : BufTy).Contents (Elt Ideal)) (x3 : (⟨S4096, .f32⟩ : BufTy).Contents (Elt Ideal)) :
    val_main_v4 (F := Ideal) x0 x1 x2 x3 = dense x0 x1 x2 x3 := by
  funext i
  rw [val_main_v4_apply, val_main_v1_apply, val_main_v3_apply, val_main_v2_apply]
  simp only [val_main_v0_apply, outer_left, inner_left, inner_right, bias_at, Ideal.addf_def]
  rfl

end FactoredLinear.Reference

end
-- ==== Proof.RealInputs.lean ====
/-
  From the precondition to real entries. The precondition tests, array by array, that every entry's absolute value is
  below `+inf` and takes the conjunction of the four answers. An extended real passing the test is neither infinity,
  so it is a real number; hence when the precondition holds, every entry of `x`, `u` and `v` is real.
-/
import proofs.«147946_j88356067213436_2_alg».proof.Pre_finite_inputs
import proofs.«147946_j88356067213436_2_alg».proof.Proof.FactoredLinear
import Idealize.ShloMosaic.Lib.ReduceAll
import Idealize.ShloMosaic.Lib.ValueIdx

noncomputable section

namespace FactoredLinear.Finite

open Idealize.ShloMosaic Idealize.ShloMosaic.ValueIdx Cert.Pre_finite_inputs

variable [Cert.Pre_finite_inputs.Facts]
open Cert.Pre_finite_inputs.Facts

/-- The rank-0 shape has one index. -/
instance : Subsingleton S_.Idx := ⟨fun a b => funext fun d => d.elim0⟩

/-- The test `|x| < +inf` passes only at a real number: at either infinity `max x (-x)` is `+inf`. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array's test: if the conjunction over all entries of `|x| < +inf` came out true, every entry is real. -/
theorem real_of_all {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) : RealEntries x := by
  intro i
  exact real_of_abs_lt_top (x i) (Host.reduce_andi_all _ _ hr hu ix0 h i)

/-- Under the precondition the three matrices have real entries. -/
theorem real_inputs (a0 : FVec Ideal S8192x4096 .f32) (a1 : FVec Ideal S4096x64 .f32) (a2 : FVec Ideal S64x4096 .f32)
    (a3 : FVec Ideal S4096 .f32) (h : fn (F := Ideal) a0 a1 a2 a3 = fun _ => 1#1) :
    RealEntries a0 ∧ RealEntries a1 ∧ RealEntries a2 := by
  have h0 := congrFun h ix0
  dsimp only [fn, fn_part1] at h0
  obtain ⟨h012, -⟩ := IntOp.andi_eq_one.1 h0
  obtain ⟨h01, h2⟩ := IntOp.andi_eq_one.1 h012
  obtain ⟨hx, hu⟩ := IntOp.andi_eq_one.1 h01
  exact ⟨real_of_all a0 _ _ _ hx, real_of_all a1 _ _ _ hu, real_of_all a2 _ _ _ h2⟩

end FactoredLinear.Finite

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.BlockPayload.lean ====
/-
  One block of 256 rows, as the kernel body computes it: entry `(p, q)` of the stored value is
  `sum_e (sum_k x(p,k) * u(k,e)) * v(e,q) + b(0,q)` — the thin product `x * u` first, then that against `v`, then the
  bias row repeated down the rows. The changes of float format between the steps are the identity on the extended reals.
-/
import proofs.«147946_j88356067213436_2_alg».proof.Proof.Gen.KernelIdeal.Skeleton
import proofs.«147946_j88356067213436_2_alg».proof.Proof.LibMatmulNN
import proofs.«147946_j88356067213436_2_alg».proof.Proof.LibBiasRow
import proofs.«147946_j88356067213436_2_alg».proof.Proof.FactoredLinear
import Idealize.ShloMosaic.Lib.ValueIdx
import Idealize.ShloMosaic.Lib.Pipeline.Value

noncomputable section

namespace FactoredLinear.Block

open Idealize.ShloMosaic Idealize.ShloMosaic.ValueIdx Cert.KernelIdeal Cert.KernelIdeal.Gen

variable [Cert.KernelIdeal.Facts]
open Cert.KernelIdeal.Facts

/-- The first product, `[256, 4096]` against `[4096, 64]` into a zero accumulator: row `p` against column `e`. -/
theorem thin_product_apply (a : FVec Ideal S256x4096 .bf16) (w : FVec Ideal S4096x64 .bf16) (p : Fin 256) (e : Fin 64) :
    matmul dot_S256x4096_S4096x64_S256x64_1_0_0_1_n_n none a w (constant S256x64 .f32 0x00000000#32) (ix2 p e)
      = ∑ k : Fin 4096, a (ix2 p k) * w (ix2 k e) :=
  Cert.LibMatmulNN.matmul_zero_apply dot_S256x4096_S4096x64_S256x64_1_0_0_1_n_n_wf none a w p e

/-- The second product, `[256, 64]` against `[64, 4096]` into a zero accumulator: row `p` against column `q`. -/
theorem wide_product_apply (a : FVec Ideal S256x64 .bf16) (w : FVec Ideal S64x4096 .bf16) (p : Fin 256) (q : Fin 4096) :
    matmul dot_S256x64_S64x4096_S256x4096_1_0_0_1_n_n none a w (constant S256x4096 .f32 0x00000000#32) (ix2 p q)
      = ∑ e : Fin 64, a (ix2 p e) * w (ix2 e q) :=
  Cert.LibMatmulNN.matmul_zero_apply dot_S256x64_S64x4096_S256x4096_1_0_0_1_n_n_wf none a w p q

/-- The bias row repeated down the 256 rows reads, at `(p, q)`, the row at `(0, q)`. -/
theorem bias_rows_apply (b : Vec Ideal S1x4096 .f32) (p : Fin 256) (q : Fin 4096) :
    broadcastTo S256x4096 (shapeCast S1x4096 b shapeCasts_S1x4096_S1x4096) broadcasts_S1x4096_S256x4096 (ix2 p q)
      = b (ix2 (0 : Fin 1) q) := by
  rw [shapeCast_self]
  exact BiasRead.row_down_apply b broadcasts_S1x4096_S256x4096 p q

/-- Entry `(p, q)` of what the body stores, from the four blocks it loads. -/
theorem payload_apply (x0 : Vec Ideal S256x4096 .f32) (x1 : Vec Ideal S4096x64 .f32) (x2 : Vec Ideal S64x4096 .f32)
    (x3 : Vec Ideal S1x4096 .f32) (p : Fin 256) (q : Fin 4096) :
    k0_pay1 (F := Ideal) x0 x1 x2 x3 (ix2 p q)
      = (∑ e : Fin 64, (∑ k : Fin 4096, x0 (ix2 p k) * x1 (ix2 k e)) * x2 (ix2 e q)) + x3 (ix2 (0 : Fin 1) q) := by
  unfold k0_pay1
  refine (addf_apply _ _ _).trans ?_
  refine congrArg₂ (· + ·) ?_ (bias_rows_apply x3 p q)
  refine (wide_product_apply _ _ p q).trans ?_
  refine Finset.sum_congr rfl fun e _ => ?_
  exact congrArg (· * x2 (ix2 e q)) (thin_product_apply _ _ p e)

/-- The stored entry against the whole arrays: when the loaded blocks are the arrays' rows and columns that output
    index `i` depends on — row `i 0` of `x`, all of `u`, column `i 1` of `v`, entry `i 1` of the bias — the entry
    at `(p, q)` is the factored arrangement at `i`. -/
theorem block_entry (X : (⟨2, ![8192, 4096]⟩ : Shape).Idx → EReal) (Uu : (⟨2, ![4096, 64]⟩ : Shape).Idx → EReal)
    (Vv : (⟨2, ![64, 4096]⟩ : Shape).Idx → EReal) (b : (⟨1, ![4096]⟩ : Shape).Idx → EReal)
    (x0 : Vec Ideal S256x4096 .f32) (x1 : Vec Ideal S4096x64 .f32) (x2 : Vec Ideal S64x4096 .f32)
    (x3 : Vec Ideal S1x4096 .f32) (i : (⟨2, ![8192, 4096]⟩ : Shape).Idx) (p : Fin 256) (q : Fin 4096)
    (h0 : ∀ k : Fin 4096, x0 (ix2 p k) = X (ix2 (i 0) k))
    (h1 : ∀ (k : Fin 4096) (e : Fin 64), x1 (ix2 k e) = Uu (ix2 k e))
    (h2 : ∀ e : Fin 64, x2 (ix2 e q) = Vv (ix2 e (i 1)))
    (h3 : x3 (ix2 (0 : Fin 1) q) = b (ix1 (i 1))) :
    k0_pay1 (F := Ideal) x0 x1 x2 x3 (ix2 p q) = factored X Uu Vv b i := by
  rw [payload_apply]
  unfold factored
  simp only [h0, h1, h2, h3]

end FactoredLinear.Block

end
-- ==== Proof.WholeArray.lean ====
/-
  From blocks to the whole array. The grid has 32 points; point `t` loads rows `256 t … 256 t + 255` of `x`, all of
  `u`, all of `v` and the bias row, and writes back rows `256 t … 256 t + 255` of the result. Each entry the point
  writes is the factored arrangement at that entry's index in the whole array, and the 32 blocks cover every row, so the
  result array after the run is the factored arrangement of the argument arrays.
-/
import proofs.«147946_j88356067213436_2_alg».proof.Proof.Gen.KernelIdeal.Value
import proofs.«147946_j88356067213436_2_alg».proof.Proof.BlockPayload
import Idealize.ShloMosaic.Lib.Pipeline.Value
import Idealize.ShloMosaic.Lib.StableHlo.Run

noncomputable section

namespace FactoredLinear.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index maps over the grid: the rows of `x` move with the rows of the result, every other block index is
    zero, and the result's row-block index stays below 32. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every block of 256 rows is some point's. -/
theorem index_onto : ∀ r : Fin 32, ∃ t : Fin cfg0.N, win0_4.index t = ![r.val, 0] :=
  (by decide +kernel : ∀ r : Fin 32, ∃ t : Fin grid0.N, win0_4.index t = ![r.val, 0])

/-- The bias row as the region finds it: the bias vector, made a row. -/
theorem bias_row (c : Dev nD) :
    (V m c main_v0 : S1x4096.Idx → EReal) = shapeCast S1x4096 (m ((c : Thread nD τ).loc main_arg3)) shapeCasts_S4096_S1x4096 := by
  unfold V; after_results; rfl

/-- That row at `(u, q)` is the bias at `q`. -/
theorem bias_row_apply (c : Dev nD) (j : S1x4096.Idx) :
    (V m c main_v0 : S1x4096.Idx → EReal) j = (m ((c : Thread nD τ).loc main_arg3) : S4096.Idx → EReal) (ix1 (j 1)) := by
  rw [bias_row]
  exact (congrArg _ (eq_ix2 j)).trans (BiasRead.vector_as_row_apply _ shapeCasts_S4096_S1x4096 (j 0) (j 1))

/-- What point `t` writes back is block `t` of the factored arrangement of the argument arrays. -/
theorem flushed_eq (c : Dev nD) (t : Fin cfg0.N) :
    (dats m 0 c).flushed 4 t = ((cfg0.win 4).blk t).view.read (Elt Ideal)
      (factored (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero origin]
  simp only [View.ld_unit_zero (S := S256x4096) origin, View.ld_unit_zero (S := S4096x64) origin,
    View.ld_unit_zero (S := S64x4096) origin, View.ld_unit_zero (S := S1x4096) origin]
  obtain ⟨f0, f1, f2, f3, f4, f5, f6, f7, f8, f9⟩ := index_facts t
  refine funext fun (j : S256x4096.Idx) => ?_
  obtain ⟨p, q, rfl⟩ : ∃ (p : Fin 256) (q : Fin 4096), j = ix2 p q := ⟨j 0, j 1, eq_ix2 j⟩
  refine Block.block_entry (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (((cfg0.win 4).blk t).view.emb (ix2 p q)) p q ?_ ?_ ?_ ?_
  · intro k
    show V m c main_arg0 (((cfg0.win 0).blk t).view.emb (ix2 p k)) = _
    rw [V_main_arg0]
    refine congrArg _ (funext fun a => Fin.ext ?_)
    match a with
    | ⟨0, _⟩ => show win0_0.index t (0 : Fin 2) * 256 + 1 * p.val = win0_4.index t (0 : Fin 2) * 256 + 1 * p.val; omega
    | ⟨1, _⟩ => show win0_0.index t (1 : Fin 2) * 4096 + 1 * k.val = k.val; omega
  · intro k e
    show V m c main_arg1 (((cfg0.win 1).blk t).view.emb (ix2 k e)) = _
    rw [V_main_arg1]
    refine congrArg _ (funext fun a => Fin.ext ?_)
    match a with
    | ⟨0, _⟩ => show win0_1.index t (0 : Fin 2) * 4096 + 1 * k.val = k.val; omega
    | ⟨1, _⟩ => show win0_1.index t (1 : Fin 2) * 64 + 1 * e.val = e.val; omega
  · intro e
    show V m c main_arg2 (((cfg0.win 2).blk t).view.emb (ix2 e q)) = _
    rw [V_main_arg2]
    refine congrArg _ (funext fun a => Fin.ext ?_)
    match a with
    | ⟨0, _⟩ => show win0_2.index t (0 : Fin 2) * 64 + 1 * e.val = e.val; omega
    | ⟨1, _⟩ => show win0_2.index t (1 : Fin 2) * 4096 + 1 * q.val = win0_4.index t (1 : Fin 2) * 4096 + 1 * q.val; omega
  · show V m c main_v0 (((cfg0.win 3).blk t).view.emb (ix2 (0 : Fin 1) q)) = _
    rw [bias_row_apply]
    refine congrArg _ (congrArg ix1 (Fin.ext ?_))
    show win0_3.index t (1 : Fin 2) * 4096 + 1 * q.val = win0_4.index t (1 : Fin 2) * 4096 + 1 * q.val
    omega

/-- An index of the result is in point `t`'s block iff each coordinate is in the block's range on its axis. -/
theorem mem_block (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v1).slice (win0_4.rect t)).set ↔ _
  rw [View.set_slice_whole, Rect.mem_set_unit]
  exact Iff.rfl

/-- Every index of the result is in some point's block: row `r` is in block `r / 256`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := index_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The result array after the run is the factored arrangement of the argument arrays. -/
theorem final (c : Dev nD) : (dats m 0 c).arrAt 4 cfg0.N
    = factored (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: the result at the factored arrangement of the arguments, the arguments unchanged. -/
theorem run : θ_run defs (onTc (τ := τ) (main (F := Ideal))) ⟨m, fun _ => 0, ρ⟩ fun r => ∀ c : Dev nD,
      r.2.mem ((c : Thread nD τ).loc main_v1)
        = factored (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end FactoredLinear.Whole

end
-- ==== Proof.lean ====
/-
  A linear layer whose weight is the product of two thin factors, `y = x * (u * v) + b` with `x : [8192, 4096]`,
  `u : [4096, 64]`, `v : [64, 4096]`, `b : [4096]`.

  The kernel never forms the square weight: per block of 256 rows it computes `(x * u) * v + b`, the thin products
  first. The reference forms `u * v` and then `x * (u * v) + b`. On the extended reals the changes of float format
  are the identity and each product is a plain finite sum, so the two results are the "factored" and the "dense"
  arrangement of one triple product (Proof/FactoredLinear.lean). They agree by associativity of the matrix product —
  distribute over the inner sums and exchange them — which holds where the entries are real numbers; the precondition
  says exactly that every input entry is finite (Proof/RealInputs.lean). The kernel's side is read block by block
  (Proof/BlockPayload.lean) and assembled into the whole array (Proof/WholeArray.lean); the reference's side is read
  operation by operation (Proof/ReferenceDense.lean).
-/
import proofs.«147946_j88356067213436_2_alg».proof.Defs
import proofs.«147946_j88356067213436_2_alg».proof.Proof.Gen.Kernel
import proofs.«147946_j88356067213436_2_alg».proof.Proof.Gen.Kernel.Skeleton
import proofs.«147946_j88356067213436_2_alg».proof.Proof.Gen.Kernel.Launch
import proofs.«147946_j88356067213436_2_alg».proof.Proof.Gen.Kernel.Points
import proofs.«147946_j88356067213436_2_alg».proof.Proof.Gen.Kernel.Frame
import proofs.«147946_j88356067213436_2_alg».proof.Proof.Gen.KernelIdeal
import proofs.«147946_j88356067213436_2_alg».proof.Proof.Gen.KernelIdeal.Skeleton
import proofs.«147946_j88356067213436_2_alg».proof.Proof.Gen.KernelIdeal.Launch
import proofs.«147946_j88356067213436_2_alg».proof.Proof.Gen.KernelIdeal.Points
import proofs.«147946_j88356067213436_2_alg».proof.Proof.Gen.KernelIdeal.Frame
import proofs.«147946_j88356067213436_2_alg».proof.Proof.Gen.KernelIdeal.Value
import proofs.«147946_j88356067213436_2_alg».proof.Proof.Gen.ReferenceIdeal
import proofs.«147946_j88356067213436_2_alg».proof.Proof.Gen.ReferenceIdeal.Run
import proofs.«147946_j88356067213436_2_alg».proof.Proof.Gen.ReferenceIdeal.Read
import proofs.«147946_j88356067213436_2_alg».proof.Proof.Gen.Pre_finite_inputs
import proofs.«147946_j88356067213436_2_alg».proof.Proof.FactoredLinear
import proofs.«147946_j88356067213436_2_alg».proof.Proof.ReferenceDense
import proofs.«147946_j88356067213436_2_alg».proof.Proof.RealInputs
import proofs.«147946_j88356067213436_2_alg».proof.Proof.WholeArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel ends at the factored arrangement of its arguments, the reference at the dense arrangement of
    arguments that agree with them; the arguments being real by the precondition, these are one array. -/
theorem algebraic : Cert.algebraic_KernelIdeal_ReferenceIdeal := by
  intro m ρ m' ρ' hpre hagree
  refine ⟨_, FactoredLinear.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, FactoredLinear.Reference.result_eq_dense,
    (hagree c).1, (hagree c).2.1, (hagree c).2.2.1, (hagree c).2.2.2]
  obtain ⟨hx, hu, hv⟩ := FactoredLinear.Finite.real_inputs _ _ _ _ (hpre c)
  exact (FactoredLinear.factored_eq_dense _ hx hu hv).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
